-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S4096 : Shape := ⟨1, ![4096]⟩
abbrev S4096x16 : Shape := ⟨2, ![4096, 16]⟩
abbrev S16x4096 : Shape := ⟨2, ![16, 4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_
  bcast_S_S4096x16 : S_.BroadcastsInDim S4096x16 (![] : Fin 0 → Fin S4096x16.rank)
  reducesTo_S4096x16_S_d0_1 : S4096x16.ReducesTo [0, 1] S_
  bcast_S_S16x4096 : S_.BroadcastsInDim S16x4096 (![] : Fin 0 → Fin S16x4096.rank)
  reducesTo_S16x4096_S_d0_1 : S16x4096.ReducesTo [0, 1] S_

variable [Facts]

def fn_part1 {F : FTy → Type} [FloatOps F] (main_arg4 : FVec F S16x4096 .f32) (main_v13 : IVec S_ 1) (main_v16 : IVec S4096x16 1) : IVec S_ 1 :=
  let main_c_5 : IVec S_ 1 := constantI S_ 1 1#1
  let main_v17 : IVec S_ 1 := (fun x v => Host.reduce IntOp.andi x v reducesTo_S4096x16_S_d0_1 h_S_) main_v16 main_c_5
  let main_v18 : IVec S_ 1 := andi main_v13 main_v17
  let main_v19 : FVec F S16x4096 .f32 := Host.absf main_arg4
  let main_cst_6 : FVec F S_ .f32 := constant S_ .f32 0x7F800000#32
  let main_v20 : FVec F S16x4096 .f32 := broadcastInDim S16x4096 ![] bcast_S_S16x4096 main_cst_6
  let main_v21 : IVec S16x4096 1 := cmpf .olt main_v19 main_v20
  let main_c_7 : IVec S_ 1 := constantI S_ 1 1#1
  let main_v22 : IVec S_ 1 := (fun x v => Host.reduce IntOp.andi x v reducesTo_S16x4096_S_d0_1 h_S_) main_v21 main_c_7
  let main_v23 : IVec S_ 1 := andi main_v18 main_v22
  main_v23

def fn {F : FTy → Type} [FloatOps F] (main_arg0 : FVec F S4x2048x4096 .f32) (main_arg1 : FVec F S4096x4096 .f32) (main_arg2 : FVec F S4096 .f32) (main_arg3 : FVec F S4096x16 .f32) (main_arg4 : FVec F S16x4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096x16 .f32 := Host.absf main_arg3
  let main_cst_4 : FVec F S_ .f32 := constant S_ .f32 0x7F800000#32
  let main_v15 : FVec F S4096x16 .f32 := broadcastInDim S4096x16 ![] bcast_S_S4096x16 main_cst_4
  let main_v16 : IVec S4096x16 1 := cmpf .olt main_v14 main_v15
  fn_part1 (F := F) main_arg4 main_v13 main_v16
-- ==== Kernel.lean ====
abbrev S4x2048x4096 : Shape := ⟨3, ![4, 2048, 4096]⟩
abbrev S4096x4096 : Shape := ⟨2, ![4096, 4096]⟩
abbrev S4096 : Shape := ⟨1, ![4096]⟩
abbrev S4096x16 : Shape := ⟨2, ![4096, 16]⟩
abbrev S16x4096 : Shape := ⟨2, ![16, 4096]⟩
abbrev S_ : Shape := ⟨0, ![]⟩
abbrev S8192x4096 : Shape := ⟨2, ![8192, 4096]⟩
abbrev S1x4096 : Shape := ⟨2, ![1, 4096]⟩
abbrev S2048x256 : Shape := ⟨2, ![2048, 256]⟩
abbrev S1024x256 : Shape := ⟨2, ![1024, 256]⟩
abbrev S1x1024 : Shape := ⟨2, ![1, 1024]⟩
abbrev S2048x1024 : Shape := ⟨2, ![2048, 1024]⟩

abbrev nBuf : Space → Nat
  | .hbm => 15
  | .vmem => 9
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S4096x16, .f32⟩
  | .hbm, ⟨4, _⟩ => ⟨S16x4096, .f32⟩
  | .hbm, ⟨5, _⟩ => ⟨S4096x4096, .f32⟩
  | .hbm, ⟨6, _⟩ => ⟨S4096x4096, .f32⟩
  | .hbm, ⟨7, _⟩ => ⟨S_, .f32⟩
  | .hbm, ⟨8, _⟩ => ⟨S4096x4096, .f32⟩
  | .hbm, ⟨9, _⟩ => ⟨S4096x4096, .f32⟩
  | .hbm, ⟨10, _⟩ => ⟨S4096x4096, .f32⟩
  | .hbm, ⟨11, _⟩ => ⟨S8192x4096, .f32⟩
  | .hbm, ⟨12, _⟩ => ⟨S1x4096, .f32⟩
  | .hbm, ⟨13, _⟩ => ⟨S8192x4096, .f32⟩
  | .hbm, ⟨14, _⟩ => ⟨S4x2048x4096, .f32⟩
  | .local _ .vmem, ⟨0, _⟩ => ⟨S2048x256, .f32⟩
  | .local _ .vmem, ⟨1, _⟩ => ⟨S2048x256, .f32⟩
  | .local _ .vmem, ⟨2, _⟩ => ⟨S1024x256, .f32⟩
  | .local _ .vmem, ⟨3, _⟩ => ⟨S1024x256, .f32⟩
  | .local _ .vmem, ⟨4, _⟩ => ⟨S1x1024, .f32⟩
  | .local _ .vmem, ⟨5, _⟩ => ⟨S1x1024, .f32⟩
  | .local _ .vmem, ⟨6, _⟩ => ⟨S2048x1024, .f32⟩
  | .local _ .vmem, ⟨7, _⟩ => ⟨S2048x1024, .f32⟩
  | .local _ .vmem, ⟨8, _⟩ => ⟨S2048x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 16], ![false, false, false]⟩

def k0_cond2 (i : grid0.Coords) : BitVec 1 :=
  let arg2 : BitVec 32 := BitVec.ofNat 32 (i 2).val
  let c15_i32 : BitVec 32 := 15#32
  let v15 : BitVec 1 := Scalar.cmpi .eq arg2 c15_i32
  let v16 : BitVec 32 := Scalar.extui v15
  let c0_i32_8 : BitVec 32 := 0#32
  let v17 : BitVec 1 := Scalar.cmpi .ne v16 c0_i32_8
  v17

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S2048x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  transposes_S4096x4096_S4096x4096_1_0 : S4096x4096.Transposes [1, 0] S4096x4096
  bcast_S_S4096x4096 : S_.BroadcastsInDim S4096x4096 (![] : Fin 0 → Fin S4096x4096.rank)
  shapeCasts_S4x2048x4096_S8192x4096 : S4x2048x4096.ShapeCasts S8192x4096
  shapeCasts_S4096_S1x4096 : S4096.ShapeCasts S1x4096
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  bitsLt_bf16_f32 : FTy.bits .bf16 < FTy.bits .f32
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  shapeCasts_S8192x4096_S4x2048x4096 : S8192x4096.ShapeCasts S4x2048x4096
  dot_S4096x16_S16x4096_S4096x4096_1_0_0_1_n_n_wf : DotDims.WF S4096x16 S16x4096 S4096x4096 [1] [0] [0] [1] [] []
  dot_S2048x256_S1024x256_S2048x1024_1_1_0_0_n_n_wf : DotDims.WF S2048x256 S1024x256 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S8192x4096.size a
  hwx0_0 : ∀ i : grid0.Coords, EltTy.bits .f32 = 32 ∨ (Rect.block (s := S8192x4096) S2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S4096x4096.size a
  hwx0_1 : ∀ i : grid0.Coords, EltTy.bits .f32 = 32 ∨ (Rect.block (s := S4096x4096) S1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x1024.size a ≤ S8192x4096.size a
  hwx0_3 : ∀ i : grid0.Coords, EltTy.bits .f32 = 32 ∨ (Rect.block (s := S8192x4096) S2048x1024.size (cc0_transform_3 i) (hinb0_3 i)).WholeWords (EltTy.packing .f32)

variable [Facts₀]

def dot_S4096x16_S16x4096_S4096x4096_1_0_0_1_n_n : DotDims S4096x16 S16x4096 S4096x4096 where
  lhsContracting := [1]
  rhsContracting := [0]
  lhsNonContracting := [0]
  rhsNonContracting := [1]
  lhsBatch := []
  rhsBatch := []
  wf := dot_S4096x16_S16x4096_S4096x4096_1_0_0_1_n_n_wf
def dot_S2048x256_S1024x256_S2048x1024_1_1_0_0_n_n : DotDims S2048x256 S1024x256 S2048x1024 where
  lhsContracting := [1]
  rhsContracting := [1]
  lhsNonContracting := [0]
  rhsNonContracting := [0]
  lhsBatch := []
  rhsBatch := []
  wf := dot_S2048x256_S1024x256_S2048x1024_1_1_0_0_n_n_wf

abbrev win0_0 : Pipeline.Window sig grid0 :=
  Pipeline.Window.ofSpec (Memref.whole main_v5) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S2048x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S4096 : Shape := ⟨1, ![4096]⟩
abbrev S4096x16 : Shape := ⟨2, ![4096, 16]⟩
abbrev S16x4096 : Shape := ⟨2, ![16, 4096]⟩
abbrev S1x1x4096 : Shape := ⟨3, ![1, 1, 4096]⟩
abbrev S4x2048x16 : Shape := ⟨3, ![4, 2048, 16]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S4096x16, .f32⟩
  | .hbm, ⟨4, _⟩ => ⟨S16x4096, .f32⟩
  | .hbm, ⟨5, _⟩ => ⟨S4x2048x4096, .f32⟩
  | .hbm, ⟨6, _⟩ => ⟨S1x1x4096, .f32⟩
  | .hbm, ⟨7, _⟩ => ⟨S4x2048x4096, .f32⟩
  | .hbm, ⟨8, _⟩ => ⟨S4x2048x4096, .f32⟩
  | .hbm, ⟨9, _⟩ => ⟨S4x2048x16, .f32⟩
  | .hbm, ⟨10, _⟩ => ⟨S4x2048x4096, .f32⟩
  | .hbm, ⟨11, _⟩ => ⟨S_, .f32⟩
  | .hbm, ⟨12, _⟩ => ⟨S4x2048x4096, .f32⟩
  | .hbm, ⟨13, _⟩ => ⟨S4x2048x4096, .f32⟩
  | .hbm, ⟨14, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]

class Facts₀ : Prop where
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  bcast_S_S4x2048x4096 : S_.BroadcastsInDim S4x2048x4096 (![] : Fin 0 → Fin S4x2048x4096.rank)
  dot_S4x2048x4096_S4096x4096_S4x2048x4096_2_1_01_0_n_n_wf : DotDims.WF S4x2048x4096 S4096x4096 S4x2048x4096 [2] [1] [0, 1] [0] [] []
  dot_S4x2048x4096_S4096x16_S4x2048x16_2_0_01_1_n_n_wf : DotDims.WF S4x2048x4096 S4096x16 S4x2048x16 [2] [0] [0, 1] [1] [] []
  dot_S4x2048x16_S16x4096_S4x2048x4096_2_0_01_1_n_n_wf : DotDims.WF S4x2048x16 S16x4096 S4x2048x4096 [2] [0] [0, 1] [1] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf
def dot_S4x2048x4096_S4096x16_S4x2048x16_2_0_01_1_n_n : DotDims S4x2048x4096 S4096x16 S4x2048x16 where
  lhsContracting := [2]
  rhsContracting := [0]
  lhsNonContracting := [0, 1]
  rhsNonContracting := [1]
  lhsBatch := []
  rhsBatch := []
  wf := dot_S4x2048x4096_S4096x16_S4x2048x16_2_0_01_1_n_n_wf
def dot_S4x2048x16_S16x4096_S4x2048x4096_2_0_01_1_n_n : DotDims S4x2048x16 S16x4096 S4x2048x4096 where
  lhsContracting := [2]
  rhsContracting := [0]
  lhsNonContracting := [0, 1]
  rhsNonContracting := [1]
  lhsBatch := []
  rhsBatch := []
  wf := dot_S4x2048x16_S16x4096_S4x2048x4096_2_0_01_1_n_n_wf

class Facts : Prop extends Facts₀ where

variable [Facts]
-- ==== Proof.Pieces.lean ====
/-
  What the kernel body leaves behind at a grid point, in each of its three cases.
  The grid is 4 x 4 x 16; the last axis runs over the sixteen 256-column blocks of the contraction, and the body
  carries a [2048, 1024] accumulator from one point to the next along it.
    * first point of a run (k = 0): the accumulator is zeroed, then gains this point's product of blocks;
    * a middle point (0 < k < 15): the accumulator found there gains this point's product;
    * last point (k = 15): the same, and then the output block is stored as the finished accumulator plus the bias row.
  Each statement holds for any float instance: it only says which stored value ends up where, the loads reading
  whole buffers and each store covering its whole buffer.
-/
import proofs.«171863_j69329362092463_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem Idealize.ShloMosaic.Tactic

namespace Cert.KernelIdeal.Pieces

open Cert.KernelIdeal Cert.KernelIdeal.Gen

variable {F : FTy → Type} [FloatOps F]

/-- The zero offsets of a whole-buffer access, however spelt. -/
theorem hz : (![0, 0] : Fin 2 → Nat) = fun _ => 0 := funext fun a => by fin_cases a <;> rfl

/-- The first point of a run of sixteen: the scratch is set to the zero block, read back, and left at
    the zero block plus this point's product of blocks. -/
theorem scratch_first (c : Dev nD) (i : grid0.Coords) (a3 : Memref sig .tc .vmem S2048x256 .f32) (h3 : a3.IsWhole) (a4 : Memref sig .tc .vmem S1024x256 .f32) (h4 : a4.IsWhole) (a5 : Memref sig .tc .vmem S1x1024 .f32) (h5 : a5.IsWhole) (a6 : Memref sig .tc .vmem S2048x1024 .f32) (h6 : a6.IsWhole) (a7 : Memref sig .tc .vmem S2048x1024 .f32) (h7 : a7.IsWhole) (hc0 : cond0_0 i) (hc1 : ¬cond0_1 i)
    (x0 : Vec F S2048x256 .f32) (x1 : Vec F S1024x256 .f32) (x2 : Vec F S1x1024 .f32) :
    sout0_A_0 c i a3 h3 a4 h4 a5 h5 a6 h6 a7 h7 hc0 hc1 x0 x1 x2 = k0_pay2 x0 x1 (k0_pay1 (F := F)) := by
  unfold sout0_A_0
  rw [View.read_writes_eq_canon _ _ _ (scover0_A_0 c i a3 h3 a4 h4 a5 h5 a6 h6 a7 h7 hc0 hc1 x0 x1 x2)]
  unfold kernelRun0_A
  dsimp only
  sl_unfold_words
  rw [View.canon_cons_unit_zero (S := S2048x1024) hz, View.readCov_unit_zero (S := S2048x1024) _ hz]
  simp only [View.readAt_eq_ld, h3.read_unread, h4.read_unread, View.ld_unit_zero (S := S2048x256) hz,
    View.ld_unit_zero (S := S1024x256) hz]

/-- A middle point: the scratch, found at what the point before left, gains this point's product of blocks. -/
theorem scratch_middle (c : Dev nD) (i : grid0.Coords) (a3 : Memref sig .tc .vmem S2048x256 .f32) (h3 : a3.IsWhole) (a4 : Memref sig .tc .vmem S1024x256 .f32) (h4 : a4.IsWhole) (a5 : Memref sig .tc .vmem S1x1024 .f32) (h5 : a5.IsWhole) (a6 : Memref sig .tc .vmem S2048x1024 .f32) (h6 : a6.IsWhole) (a7 : Memref sig .tc .vmem S2048x1024 .f32) (h7 : a7.IsWhole) (hc0 : ¬cond0_0 i) (hc1 : ¬cond0_1 i)
    (x0 : Vec F S2048x256 .f32) (x1 : Vec F S1024x256 .f32) (x2 : Vec F S1x1024 .f32) (xs0 : Vec F S2048x1024 .f32) :
    sout0_B_0 c i a3 h3 a4 h4 a5 h5 a6 h6 a7 h7 hc0 hc1 x0 x1 x2 xs0 = k0_pay2 x0 x1 xs0 := by
  unfold sout0_B_0
  rw [View.read_writes_eq_canon _ _ _ (scover0_B_0 c i a3 h3 a4 h4 a5 h5 a6 h6 a7 h7 hc0 hc1 x0 x1 x2 xs0)]
  unfold kernelRun0_B
  dsimp only
  rw [View.canon_unit_zero hz]
  simp only [View.readAt_eq_ld, h3.read_unread, h4.read_unread, h7.read_unread, View.ld_unit_zero (S := S2048x256) hz,
    View.ld_unit_zero (S := S1024x256) hz, View.ld_unit_zero (S := S2048x1024) hz]

/-- The last point of a run: the scratch gains this point's product as at a middle point, -/
theorem scratch_last (c : Dev nD) (i : grid0.Coords) (a3 : Memref sig .tc .vmem S2048x256 .f32) (h3 : a3.IsWhole) (a4 : Memref sig .tc .vmem S1024x256 .f32) (h4 : a4.IsWhole) (a5 : Memref sig .tc .vmem S1x1024 .f32) (h5 : a5.IsWhole) (a6 : Memref sig .tc .vmem S2048x1024 .f32) (h6 : a6.IsWhole) (a7 : Memref sig .tc .vmem S2048x1024 .f32) (h7 : a7.IsWhole) (hc0 : ¬cond0_0 i) (hc1 : cond0_1 i)
    (x0 : Vec F S2048x256 .f32) (x1 : Vec F S1024x256 .f32) (x2 : Vec F S1x1024 .f32) (xs0 : Vec F S2048x1024 .f32) :
    sout0_C_0 c i a3 h3 a4 h4 a5 h5 a6 h6 a7 h7 hc0 hc1 x0 x1 x2 xs0 = k0_pay2 x0 x1 xs0 := by
  unfold sout0_C_0
  rw [View.read_writes_eq_canon _ _ _ (scover0_C_0 c i a3 h3 a4 h4 a5 h5 a6 h6 a7 h7 hc0 hc1 x0 x1 x2 xs0)]
  unfold kernelRun0_C
  dsimp only
  sl_unfold_words
  rw [View.canon_unit_zero hz]
  simp only [View.readAt_eq_ld, h3.read_unread, h4.read_unread, h7.read_unread, View.ld_unit_zero (S := S2048x256) hz,
    View.ld_unit_zero (S := S1024x256) hz, View.ld_unit_zero (S := S2048x1024) hz]

/-- and the output block is stored: the finished scratch, read back, plus the bias row broadcast down the rows. -/
theorem out_last (c : Dev nD) (i : grid0.Coords) (a3 : Memref sig .tc .vmem S2048x256 .f32) (h3 : a3.IsWhole) (a4 : Memref sig .tc .vmem S1024x256 .f32) (h4 : a4.IsWhole) (a5 : Memref sig .tc .vmem S1x1024 .f32) (h5 : a5.IsWhole) (a6 : Memref sig .tc .vmem S2048x1024 .f32) (h6 : a6.IsWhole) (a7 : Memref sig .tc .vmem S2048x1024 .f32) (h7 : a7.IsWhole) (hc0 : ¬cond0_0 i) (hc1 : cond0_1 i)
    (x0 : Vec F S2048x256 .f32) (x1 : Vec F S1024x256 .f32) (x2 : Vec F S1x1024 .f32) (xs0 : Vec F S2048x1024 .f32) :
    out0_C_3 c i a3 h3 a4 h4 a5 h5 a6 h6 a7 h7 hc0 hc1 x0 x1 x2 xs0 = k0_pay3 (k0_pay2 x0 x1 xs0) x2 := by
  unfold out0_C_3
  rw [View.read_writes_eq_canon _ _ _ (cover0_C_3 c i a3 h3 a4 h4 a5 h5 a6 h6 a7 h7 hc0 hc1 x0 x1 x2 xs0)]
  unfold kernelRun0_C
  dsimp only
  sl_unfold_words
  rw [View.canon_unit_zero hz, View.readCov_unit_zero (S := S2048x1024) _ hz]
  simp only [View.readAt_eq_ld, h3.read_unread, h4.read_unread, h5.read_unread, h7.read_unread, View.ld_unit_zero (S := S2048x256) hz,
    View.ld_unit_zero (S := S1024x256) hz, View.ld_unit_zero (S := S2048x1024) hz, View.ld_unit_zero (S := S1x1024) hz]

end Cert.KernelIdeal.Pieces

end
-- ==== Proof.Payload.lean ====
/-
  The kernel body's three stored values, read at an index over the extended reals.
  At a point of the grid the body holds a [2048, 256] block `a` of the activations, a [1024, 256] block `w` of the
  folded weights and a [1, 1024] block of the bias. It stores
    * the zero block (at the first point of a run of sixteen points),
    * `acc + a · wᵀ`: at (r, c) the accumulator plus the sum over the 256 shared columns e of a(r, e) · w(c, e)
      (the rounding of both operands to a shorter format is the identity on the extended reals, and the product
      into a zero accumulator is the plain sum),
    * `acc + bias` with the bias row repeated down the rows: at (r, c), acc(r, c) + bias(0, c).
-/
import proofs.«171863_j69329362092463_2_alg».proof.Proof.Gen.KernelIdeal.Skeleton
import Idealize.ShloMosaic.Lib.Pipeline.Value
import Idealize.ShloMosaic.Lib.ValueIdx
import Idealize.ShloMosaic.PureOps.Ideal.Laws

noncomputable section

open Idealize.ShloMosaic Idealize.ShloMosaic.ValueIdx

namespace Cert.KernelIdeal.Payload

open Cert.KernelIdeal Cert.KernelIdeal.Gen

/-- The zero block is zero everywhere. -/
theorem zero_apply (j : S2048x1024.Idx) : k0_pay1 (F := Ideal) j = 0 := by
  unfold k0_pay1
  refine (congrFun (shapeCast_self _ _) j).trans ?_
  exact Ideal.ofBits_zero_f32

/-! The block product contracts the second axis of both operands: output (r, c) reads the left operand along
    row r and the right operand along row c. -/

theorem lhs_row (j : S2048x1024.Idx) (q : dot_S2048x256_S1024x256_S2048x1024_1_1_0_0_n_n.contr.Idx) :
    (dot_S2048x256_S1024x256_S2048x1024_1_1_0_0_n_n.lhsIdx j q 0).val = (j 0).val := by
  unfold DotDims.lhsIdx
  rw [dif_neg (show ¬(0 : Fin S2048x256.rank) ∈ dot_S2048x256_S1024x256_S2048x1024_1_1_0_0_n_n.lhsBatch by decide), dif_pos (show (0 : Fin S2048x256.rank) ∈ dot_S2048x256_S1024x256_S2048x1024_1_1_0_0_n_n.lhsNonContracting by decide)]
  rfl
theorem lhs_col (j : S2048x1024.Idx) (q : dot_S2048x256_S1024x256_S2048x1024_1_1_0_0_n_n.contr.Idx) :
    (dot_S2048x256_S1024x256_S2048x1024_1_1_0_0_n_n.lhsIdx j q 1).val = (q ⟨0, by decide⟩).val :=
  dot_S2048x256_S1024x256_S2048x1024_1_1_0_0_n_n.lhsIdx_val_of_single rfl j q
theorem rhs_row (j : S2048x1024.Idx) (q : dot_S2048x256_S1024x256_S2048x1024_1_1_0_0_n_n.contr.Idx) :
    (dot_S2048x256_S1024x256_S2048x1024_1_1_0_0_n_n.rhsIdx j q 0).val = (j 1).val := by
  unfold DotDims.rhsIdx
  rw [dif_neg (show ¬(0 : Fin S1024x256.rank) ∈ dot_S2048x256_S1024x256_S2048x1024_1_1_0_0_n_n.rhsBatch by decide), dif_pos (show (0 : Fin S1024x256.rank) ∈ dot_S2048x256_S1024x256_S2048x1024_1_1_0_0_n_n.rhsNonContracting by decide)]
  rfl
theorem rhs_col (j : S2048x1024.Idx) (q : dot_S2048x256_S1024x256_S2048x1024_1_1_0_0_n_n.contr.Idx) :
    (dot_S2048x256_S1024x256_S2048x1024_1_1_0_0_n_n.rhsIdx j q 1).val = (q ⟨0, by decide⟩).val :=
  dot_S2048x256_S1024x256_S2048x1024_1_1_0_0_n_n.rhsIdx_val_of_single rfl j q

/-- The product of two blocks into a zero accumulator, at (r, c): the sum over the shared axis. -/
theorem block_product_apply {φ₁ φ₂ : FTy} (a : FVec Ideal S2048x256 φ₁) (w : FVec Ideal S1024x256 φ₂) (r : Fin 2048) (c : Fin 1024) :
    FloatOps.matmul dot_S2048x256_S1024x256_S2048x1024_1_1_0_0_n_n none a w (constant (F := Ideal) S2048x1024 .f32 0x00000000#32) (ix2 r c)
      = ∑ e : Fin 256, a (ix2 r e) * w (ix2 c e) := by
  rw [Ideal.matmul_constant_zero_apply, ← Equiv.sum_comp (contrEquiv1 dot_S2048x256_S1024x256_S2048x1024_1_1_0_0_n_n 256 rfl rfl).symm]
  refine Finset.sum_congr rfl fun e _ => ?_
  have hk := contrEquiv1_symm_val dot_S2048x256_S1024x256_S2048x1024_1_1_0_0_n_n 256 rfl rfl e
  have el : dot_S2048x256_S1024x256_S2048x1024_1_1_0_0_n_n.lhsIdx (ix2 r c) ((contrEquiv1 dot_S2048x256_S1024x256_S2048x1024_1_1_0_0_n_n 256 rfl rfl).symm e) = ix2 r e := funext fun d => Fin.ext (by
    match d with
    | ⟨0, _⟩ => exact lhs_row _ _
    | ⟨1, _⟩ => exact (lhs_col _ _).trans hk)
  have er : dot_S2048x256_S1024x256_S2048x1024_1_1_0_0_n_n.rhsIdx (ix2 r c) ((contrEquiv1 dot_S2048x256_S1024x256_S2048x1024_1_1_0_0_n_n 256 rfl rfl).symm e) = ix2 c e := funext fun d => Fin.ext (by
    match d with
    | ⟨0, _⟩ => exact rhs_row _ _
    | ⟨1, _⟩ => exact (rhs_col _ _).trans hk)
  rw [el, er]

/-- The accumulating store at (r, c): the accumulator plus this point's sum over the shared columns. -/
theorem accumulate_apply (x0 : Vec Ideal S2048x256 .f32) (x1 : Vec Ideal S1024x256 .f32) (acc : Vec Ideal S2048x1024 .f32)
    (r : Fin 2048) (c : Fin 1024) :
    k0_pay2 (F := Ideal) x0 x1 acc (ix2 r c) = acc (ix2 r c) + ∑ e : Fin 256, x0 (ix2 r e) * x1 (ix2 c e) := by
  unfold k0_pay2
  refine (congrFun (shapeCast_self _ _) (ix2 r c)).trans ?_
  refine congrArg (acc (ix2 r c) + ·) ?_
  refine (block_product_apply _ _ r c).trans ?_
  refine Finset.sum_congr rfl fun e _ => ?_
  exact congrArg₂ (· * ·) (congrFun (shapeCast_self x0 _) (ix2 r e)) (congrFun (shapeCast_self x1 _) (ix2 c e))

/-- The final store at (r, c): the finished accumulator plus the bias of column c. -/
theorem add_bias_apply (a : Vec Ideal S2048x1024 .f32) (bz : Vec Ideal S1x1024 .f32) (r : Fin 2048) (c : Fin 1024) :
    k0_pay3 (F := Ideal) a bz (ix2 r c) = a (ix2 r c) + bz (ix2 (0 : Fin 1) c) := by
  unfold k0_pay3
  refine congrArg (a (ix2 r c) + ·) ?_
  refine (broadcastTo_apply _ broadcasts_S1x1024_S2048x1024 (ix2 r c) (ix2 (0 : Fin 1) c) (fun d => ?_)).trans ?_
  · match d with
    | ⟨0, _⟩ => show (0 : Nat) = if (1 : Nat) = 1 then 0 else r.val; rw [if_pos rfl]
    | ⟨1, _⟩ => show c.val = if (1024 : Nat) = 1 then 0 else c.val; rw [if_neg (by decide)]
  · exact congrFun (shapeCast_self bz _) _

end Cert.KernelIdeal.Payload

end
-- ==== Proof.Fold.lean ====
/-
  The accumulator along a run of sixteen grid points, and the block the run's last point stores.
  Points are numbered row-major over the 4 x 4 x 16 grid, so the sixteen points of one run are consecutive:
  the run through point t starts at 16 · (t / 16). The accumulator is reset at the points ≡ 0 (mod 16) and gains the
  point's product of blocks at every point, so after the point at offset j of its run it holds, at (r, c),
      0 + Σ_{s ≤ j} Σ_{e < 256} a_s(r, e) · w_s(c, e),
  a_s and w_s the activation and weight blocks of the run's s-th point. At the run's last point (offset 15) the
  output block is that sum over all sixteen points plus the bias of column c.
-/
import proofs.«171863_j69329362092463_2_alg».proof.Proof.Pieces
import proofs.«171863_j69329362092463_2_alg».proof.Proof.Payload

set_option maxRecDepth 16384

noncomputable section

open Idealize.ShloMosaic Idealize.ShloMosaic.TcCoe Idealize.SL.Sem Idealize.ShloMosaic.ValueIdx

namespace Cert.KernelIdeal.Fold

open Cert.KernelIdeal Cert.KernelIdeal.Gen

variable (m : (ℓ : Loc nD τ sig) → Buf (Elt Ideal) ℓ)

/-- The accumulator's contents after point `n`. -/
def acc (c : Dev nD) (n : ℕ) (h : n < cfg0.N) : Vec Ideal S2048x1024 .f32 := (outsAt0 m c n h).2

/-- What a resetting point leaves: the zero block plus the point's product of blocks. -/
def reset (c : Dev nD) (n : ℕ) (h : n < cfg0.N) : Vec Ideal S2048x1024 .f32 :=
  k0_pay2 (iblk m c 0 ⟨n, h⟩) (iblk m c 1 ⟨n, h⟩) (k0_pay1 (F := Ideal))

/-- What any other point leaves over the accumulator `a` it finds: `a` plus the point's product of blocks. -/
def step (c : Dev nD) (n : ℕ) (h : n < cfg0.N) (a : Vec Ideal S2048x1024 .f32) : Vec Ideal S2048x1024 .f32 :=
  k0_pay2 (iblk m c 0 ⟨n, h⟩) (iblk m c 1 ⟨n, h⟩) a

/-- At a point ≡ 0 (mod 16) the accumulator is reset. -/
theorem scratch_at_first (c : Dev nD) (t : Fin cfg0.N) (h0 : t.val % 16 = 0) (h1 : ¬t.val % 16 = 15) :
    (outsAt0 m c t.val t.isLt).2 = k0_pay2 (iblk m c 0 t) (iblk m c 1 t) (k0_pay1 (F := Ideal)) := by
  rw [outsAt0_A m c t h0 h1]
  dsimp only
  exact Pieces.scratch_first (F := Ideal) c (grid0.coords t) (ms0_0 t) (hs0_0 t) (ms0_1 t) (hs0_1 t) (ms0_2 t) (hs0_2 t) (ms0_3 t) (hs0_3 t) scM0_0 (Memref.isWhole_whole _) _ _ (iblk m c 0 t) (iblk m c 1 t) (iblk m c 2 t)

/-- At every other point it steps from what the point before left: a middle point and a last point alike. -/
theorem scratch_at_later (c : Dev nD) (t : Fin cfg0.N) (h0 : ¬t.val % 16 = 0) :
    (outsAt0 m c t.val t.isLt).2
      = k0_pay2 (iblk m c 0 t) (iblk m c 1 t) (outsAt0 m c (t.val - 1) (Nat.lt_of_le_of_lt (Nat.sub_le _ _) t.isLt)).2 := by
  by_cases h1 : t.val % 16 = 15
  · rw [outsAt0_C m c t h0 h1]
    dsimp only
    exact Pieces.scratch_last (F := Ideal) c (grid0.coords t) (ms0_0 t) (hs0_0 t) (ms0_1 t) (hs0_1 t) (ms0_2 t) (hs0_2 t) (ms0_3 t) (hs0_3 t) scM0_0 (Memref.isWhole_whole _) _ _ (iblk m c 0 t) (iblk m c 1 t) (iblk m c 2 t)
      (outsAt0 m c (t.val - 1) (Nat.lt_of_le_of_lt (Nat.sub_le _ _) t.isLt)).2
  · rw [outsAt0_B m c t h0 h1]
    dsimp only
    exact Pieces.scratch_middle (F := Ideal) c (grid0.coords t) (ms0_0 t) (hs0_0 t) (ms0_1 t) (hs0_1 t) (ms0_2 t) (hs0_2 t) (ms0_3 t) (hs0_3 t) scM0_0 (Memref.isWhole_whole _) _ _ (iblk m c 0 t) (iblk m c 1 t) (iblk m c 2 t)
      (outsAt0 m c (t.val - 1) (Nat.lt_of_le_of_lt (Nat.sub_le _ _) t.isLt)).2

theorem acc_reset (c : Dev nD) (n : ℕ) (h : n < cfg0.N) (h0 : n % 16 = 0) : acc m c n h = reset m c n h :=
  scratch_at_first m c ⟨n, h⟩ h0 (by show ¬n % 16 = 15; omega)

theorem acc_step (c : Dev nD) (n : ℕ) (h : n + 1 < cfg0.N) (h0 : ¬(n + 1) % 16 = 0) :
    acc m c (n + 1) h = step m c (n + 1) h (acc m c n (Nat.lt_of_succ_lt h)) :=
  scratch_at_later m c ⟨n + 1, h⟩ h0

/-- Row r of an activation block against row q of a weight block: the sum over their 256 shared columns. -/
def rowDot (x0 : Vec Ideal S2048x256 .f32) (x1 : Vec Ideal S1024x256 .f32) (r : Fin 2048) (q : Fin 1024) : EReal :=
  ∑ e : Fin 256, x0 (ix2 r e) * x1 (ix2 q e)

/-- Column q of a bias block. -/
def biasAt (x2 : Vec Ideal S1x1024 .f32) (q : Fin 1024) : EReal := x2 (ix2 (0 : Fin 1) q)

/-- Point `n`'s product of blocks at (r, q) (zero past the grid, where it is never read). -/
def prodAt (c : Dev nD) (n : ℕ) (r : Fin 2048) (q : Fin 1024) : EReal :=
  if h : n < cfg0.N then rowDot (iblk m c 0 ⟨n, h⟩) (iblk m c 1 ⟨n, h⟩) r q else 0

/-- The same as a function of the block index. -/
def term (c : Dev nD) (n : ℕ) (i : S2048x1024.Idx) : EReal := prodAt m c n (i 0) (i 1)

theorem reset_apply (c : Dev nD) (n : ℕ) (h : n < cfg0.N) (i : S2048x1024.Idx) :
    reset m c n h i = (fun _ => (0 : EReal)) i + term m c n i := by
  obtain ⟨r, q, rfl⟩ : ∃ (r : Fin 2048) (q : Fin 1024), i = ix2 r q := ⟨i 0, i 1, eq_ix2 i⟩
  unfold reset
  refine (Payload.accumulate_apply _ _ _ r q).trans ?_
  rw [Payload.zero_apply]
  show (0 : EReal) + _ = 0 + prodAt m c n r q
  unfold prodAt
  rw [dif_pos h]
  rfl

theorem step_apply (c : Dev nD) (n : ℕ) (h : n < cfg0.N) (a : Vec Ideal S2048x1024 .f32) (i : S2048x1024.Idx) :
    step m c n h a i = a i + term m c n i := by
  obtain ⟨r, q, rfl⟩ : ∃ (r : Fin 2048) (q : Fin 1024), i = ix2 r q := ⟨i 0, i 1, eq_ix2 i⟩
  unfold step
  refine (Payload.accumulate_apply _ _ _ r q).trans ?_
  show a (ix2 r q) + _ = a (ix2 r q) + prodAt m c n r q
  unfold prodAt
  rw [dif_pos h]
  rfl

/-- After a run's last point the accumulator is the sum of the run's sixteen products. -/
theorem acc_last_apply (c : Dev nD) (t : Fin cfg0.N) (h15 : t.val % 16 = 15) (r : Fin 2048) (q : Fin 1024) :
    acc m c t.val t.isLt (ix2 r q) = 0 + ∑ s ∈ Finset.range 16, prodAt m c (16 * (t.val / 16) + s) r q := by
  have hN : cfg0.N = 256 := N_0
  have hlt : t.val < 256 := lt_of_lt_of_eq t.isLt hN
  have h' : 16 * (t.val / 16) + t.val % 16 < cfg0.N := by rw [Nat.div_add_mod]; exact t.isLt
  rw [Pipeline.eq_accAt_of_mod (acc m c) 16 (reset m c) (step m c) (acc_reset m c) (acc_step m c) (by decide) t.val t.isLt h']
  have h'' : 16 * (t.val / 16) + 15 < cfg0.N := by rw [← h15]; exact h'
  have e := Pipeline.accAt_add_apply (reset m c) (step m c) (fun _ => (0 : EReal)) (term m c) (16 * (t.val / 16)) 15
    (fun h i => reset_apply m c _ h i) (fun n h a i _ _ => step_apply m c n h a i) 15 (le_refl _) h'' (ix2 r q)
  have same : ∀ (j : ℕ) (hj : 16 * (t.val / 16) + j < cfg0.N), j = 15 →
      Pipeline.accAt (reset m c) (step m c) (16 * (t.val / 16)) j hj (ix2 r q)
        = Pipeline.accAt (reset m c) (step m c) (16 * (t.val / 16)) 15 h'' (ix2 r q) := fun j hj ej => by subst ej; rfl
  rw [same _ h' h15, e]
  rfl

/-- The block a run's last point stores: the finished accumulator plus the bias row. -/
theorem out_last_eq (c : Dev nD) (t : Fin cfg0.N) (h15 : t.val % 16 = 15) :
    (outsAt0 m c t.val t.isLt).1 = k0_pay3 (acc m c t.val t.isLt) (iblk m c 2 t) := by
  have h0 : ¬t.val % 16 = 0 := by omega
  have e2 : acc m c t.val t.isLt
      = k0_pay2 (iblk m c 0 t) (iblk m c 1 t) (outsAt0 m c (t.val - 1) (Nat.lt_of_le_of_lt (Nat.sub_le _ _) t.isLt)).2 :=
    scratch_at_later m c t h0
  rw [e2, outsAt0_C m c t h0 h15]
  dsimp only
  exact Pieces.out_last (F := Ideal) c (grid0.coords t) (ms0_0 t) (hs0_0 t) (ms0_1 t) (hs0_1 t) (ms0_2 t) (hs0_2 t) (ms0_3 t) (hs0_3 t) scM0_0 (Memref.isWhole_whole _) _ _ (iblk m c 0 t) (iblk m c 1 t) (iblk m c 2 t)
    (outsAt0 m c (t.val - 1) (Nat.lt_of_le_of_lt (Nat.sub_le _ _) t.isLt)).2

/-- … at (r, c): the sum of the run's sixteen products plus the bias of column c. -/
theorem out_last_apply (c : Dev nD) (t : Fin cfg0.N) (h15 : t.val % 16 = 15) (r : Fin 2048) (q : Fin 1024) :
    (outsAt0 m c t.val t.isLt).1 (ix2 r q)
      = (0 + ∑ s ∈ Finset.range 16, prodAt m c (16 * (t.val / 16) + s) r q) + biasAt (iblk m c 2 t) q := by
  rw [out_last_eq m c t h15]
  refine (Payload.add_bias_apply _ _ r q).trans ?_
  rw [acc_last_apply m c t h15 r q]
  rfl

end Cert.KernelIdeal.Fold

end
-- ==== Proof.Blocks.lean ====
/-
  From blocks to the whole output array of the region.
  The region's output is an [8192, 4096] array cut into [2048, 1024] blocks; grid point t = 64·i + 16·j + k works on
  block (i, j), reading the [2048, 256] block (i, k) of the activations X, the [1024, 256] block (j, k) of the folded
  weights Wf and the [1, 1024] block (0, j) of the bias row. Only the points with k = 15 write the block back, and
  what they write is the block of ONE function of the three arrays as the region finds them:
      R(p, q) = (0 + Σ_{s < 16} Σ_{e < 256} X(p, 256·s + e) · Wf(q, 256·s + e)) + bias(0, q).
  Every index (p, q) lies in the block of the point 64·(p / 2048) + 16·(q / 1024) + 15, so the array ends at R.
-/
import proofs.«171863_j69329362092463_2_alg».proof.Proof.Fold

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen

/-- Column `e` of the `s`-th block of 256 along the contraction axis. -/
def kcol (s : Fin 16) (e : Fin 256) : Fin 4096 := ⟨256 * s.val + e.val, by have := s.isLt; have := e.isLt; omega⟩

theorem kcol_val (s : Fin 16) (e : Fin 256) : (kcol s e).val = 256 * s.val + e.val := rfl

/-- The region's result at row p and column q, from the three arrays it reads. -/
def resultAt (X : S8192x4096.Idx → EReal) (Wf : S4096x4096.Idx → EReal) (Bz : S1x4096.Idx → EReal)
    (p : Fin 8192) (q : Fin 4096) : EReal :=
  (0 + ∑ s : Fin 16, ∑ e : Fin 256, X (ix2 p (kcol s e)) * Wf (ix2 q (kcol s e))) + Bz (ix2 (0 : Fin 1) q)

/-- The same as one function of the array index. -/
def result (X : S8192x4096.Idx → EReal) (Wf : S4096x4096.Idx → EReal) (Bz : S1x4096.Idx → EReal) :
    S8192x4096.Idx → EReal := fun i => resultAt X Wf Bz (i 0) (i 1)

variable (m : (ℓ : Loc nD τ sig) → Buf (Elt Ideal) ℓ)

/-- The four index maps over the grid: point t = 64·i + 16·j + k reads block (i, k) of the activations, block (j, k) of
    the weights, block (0, j) of the bias row, and works on block (i, j) of the output. -/
theorem idx_facts : ∀ t : Fin cfg0.N,
    win0_0.index t (0 : Fin 2) = t.val / 64 ∧ win0_0.index t (1 : Fin 2) = t.val % 16
    ∧ win0_1.index t (0 : Fin 2) = t.val / 16 % 4 ∧ win0_1.index t (1 : Fin 2) = t.val % 16
    ∧ win0_2.index t (0 : Fin 2) = 0 ∧ win0_2.index t (1 : Fin 2) = t.val / 16 % 4
    ∧ win0_3.index t (0 : Fin 2) = t.val / 64 ∧ win0_3.index t (1 : Fin 2) = t.val / 16 % 4 :=
  (by decide +kernel : ∀ t : Fin grid0.N, _)

/-- The activation block of point n, at (r, e): the array at row 2048·(n / 64) + r, column 256·(n % 16) + e. -/
theorem act_read (c : Dev nD) (n : Fin cfg0.N) (r : Fin 2048) (e : Fin 256) (p : Fin 8192) (k : Fin 4096)
    (hp : p.val = 2048 * (n.val / 64) + r.val) (hk : k.val = 256 * (n.val % 16) + e.val) :
    iblk m c 0 n (ix2 r e) = V m c main_v5 (ix2 p k) := by
  show V m c main_v5 (((cfg0.win 0).blk n).view.emb (ix2 r e)) = V m c main_v5 (ix2 p k)
  obtain ⟨f0, f1, -⟩ := idx_facts n
  refine congrArg (V m c main_v5) (funext fun a => Fin.ext ?_)
  match a with
  | ⟨0, _⟩ => show win0_0.index n (0 : Fin 2) * 2048 + 1 * r.val = p.val; rw [f0, hp]; omega
  | ⟨1, _⟩ => show win0_0.index n (1 : Fin 2) * 256 + 1 * e.val = k.val; rw [f1, hk]; omega

/-- The weight block of point n, at (q, e): the array at row 1024·(n / 16 % 4) + q, column 256·(n % 16) + e. -/
theorem wt_read (c : Dev nD) (n : Fin cfg0.N) (q : Fin 1024) (e : Fin 256) (q' : Fin 4096) (k : Fin 4096)
    (hq : q'.val = 1024 * (n.val / 16 % 4) + q.val) (hk : k.val = 256 * (n.val % 16) + e.val) :
    iblk m c 1 n (ix2 q e) = V m c main_v4 (ix2 q' k) := by
  show V m c main_v4 (((cfg0.win 1).blk n).view.emb (ix2 q e)) = V m c main_v4 (ix2 q' k)
  obtain ⟨-, -, f2, f3, -⟩ := idx_facts n
  refine congrArg (V m c main_v4) (funext fun a => Fin.ext ?_)
  match a with
  | ⟨0, _⟩ => show win0_1.index n (0 : Fin 2) * 1024 + 1 * q.val = q'.val; rw [f2, hq]; omega
  | ⟨1, _⟩ => show win0_1.index n (1 : Fin 2) * 256 + 1 * e.val = k.val; rw [f3, hk]; omega

/-- The bias block of point n, at (0, q): the row at column 1024·(n / 16 % 4) + q. -/
theorem bias_read (c : Dev nD) (n : Fin cfg0.N) (q : Fin 1024) (q' : Fin 4096)
    (hq : q'.val = 1024 * (n.val / 16 % 4) + q.val) :
    iblk m c 2 n (ix2 (0 : Fin 1) q) = V m c main_v6 (ix2 (0 : Fin 1) q') := by
  show V m c main_v6 (((cfg0.win 2).blk n).view.emb (ix2 (0 : Fin 1) q)) = V m c main_v6 (ix2 (0 : Fin 1) q')
  obtain ⟨-, -, -, -, f4, f5, -⟩ := idx_facts n
  refine congrArg (V m c main_v6) (funext fun a => Fin.ext ?_)
  match a with
  | ⟨0, _⟩ => show win0_2.index n (0 : Fin 2) * 1 + 1 * 0 = 0; rw [f4]
  | ⟨1, _⟩ => show win0_2.index n (1 : Fin 2) * 1024 + 1 * q.val = q'.val; rw [f5, hq]; omega

/-- What a run's last point stores, at (r, q) of its block, is the result function at the array index under it. -/
theorem block_is_result (c : Dev nD) (t : Fin cfg0.N) (h15 : t.val % 16 = 15) (r : Fin 2048) (q : Fin 1024)
    (p : Fin 8192) (q' : Fin 4096) (hp : p.val = 2048 * (t.val / 64) + r.val) (hq : q'.val = 1024 * (t.val / 16 % 4) + q.val) :
    (outsAt0 m c t.val t.isLt).1 (ix2 r q) = resultAt (V m c main_v5) (V m c main_v4) (V m c main_v6) p q' := by
  have hN : cfg0.N = 256 := N_0
  have hlt : t.val < 256 := lt_of_lt_of_eq t.isLt hN
  rw [Fold.out_last_apply m c t h15 r q]
  unfold resultAt
  refine congrArg₂ (· + ·) (congrArg (0 + ·) ?_) ((show Fold.biasAt (iblk m c 2 t) q = iblk m c 2 t (ix2 (0 : Fin 1) q) from rfl).trans (bias_read m c t q q' hq))
  rw [Finset.sum_range]
  refine Finset.sum_congr rfl fun s _ => ?_
  have hs : s.val < 16 := s.isLt
  have hn : 16 * (t.val / 16) + s.val < cfg0.N := lt_of_lt_of_eq (by omega : 16 * (t.val / 16) + s.val < 256) hN.symm
  unfold Fold.prodAt
  rw [dif_pos hn]
  unfold Fold.rowDot
  refine Finset.sum_congr rfl fun e _ => ?_
  have he : e.val < 256 := e.isLt
  refine congrArg₂ (· * ·) (act_read m c ⟨_, hn⟩ r e p (kcol s e) ?_ ?_) (wt_read m c ⟨_, hn⟩ q e q' (kcol s e) ?_ ?_)
  · show p.val = 2048 * ((16 * (t.val / 16) + s.val) / 64) + r.val; rw [hp]; omega
  · show (kcol s e).val = 256 * ((16 * (t.val / 16) + s.val) % 16) + e.val; rw [kcol_val]; omega
  · show q'.val = 1024 * ((16 * (t.val / 16) + s.val) / 16 % 4) + q.val; rw [hq]; omega
  · show (kcol s e).val = 256 * ((16 * (t.val / 16) + s.val) % 16) + e.val; rw [kcol_val]; omega

/-- WHAT A FLUSHING POINT WRITES BACK is its block of the result function of the arrays as the region finds them. -/
theorem flushed_eq (c : Dev nD) (t : Fin cfg0.N) (hf : (cfg0.win 3).flush t = true) :
    (dats m 0 c).flushed 3 t
      = ((cfg0.win 3).blk t).view.read (Elt Ideal) (result (V m c main_v5) (V m c main_v4) (V m c main_v6)) := by
  have h15 : t.val % 16 = 15 := (flush0_3 t).mp hf
  show (cfg0.win 3).cut (grid0.coords t) ((dats m 0 c).after 3 t) = _
  rw [after0_3]
  funext y
  have key : ∀ (r : Fin 2048) (q : Fin 1024),
      (outsAt0 m c t.val t.isLt).1 (ix2 r q)
        = result (V m c main_v5) (V m c main_v4) (V m c main_v6) (((cfg0.win 3).blk t).view.emb (ix2 r q)) := fun r q => by
    obtain ⟨-, -, -, -, -, -, f6, f7⟩ := idx_facts t
    have hr : r.val < 2048 := r.isLt
    have hq : q.val < 1024 := q.isLt
    have hlt : t.val < 256 := lt_of_lt_of_eq t.isLt (show cfg0.N = 256 from N_0)
    have e0 : ((((cfg0.win 3).blk t).view.emb (ix2 r q)) 0).val = 2048 * (t.val / 64) + r.val := by
      show win0_3.index t (0 : Fin 2) * 2048 + 1 * r.val = _; rw [f6]; omega
    have e1 : ((((cfg0.win 3).blk t).view.emb (ix2 r q)) 1).val = 1024 * (t.val / 16 % 4) + q.val := by
      show win0_3.index t (1 : Fin 2) * 1024 + 1 * q.val = _; rw [f7]; omega
    exact block_is_result m c t h15 r q _ _ e0 e1
  have hy := @eq_ix2 2048 1024 y
  show (outsAt0 m c t.val t.isLt).1 y = result _ _ _ (((cfg0.win 3).blk t).view.emb y)
  rw [hy]
  exact key _ _

/-- An index of the array is in point t's block iff each coordinate is in the block's range on its axis. -/
theorem mem_blk (t : Fin cfg0.N) (i : S8192x4096.Idx) :
    i ∈ ((cfg0.win 3).blk t).view.set ↔ ∀ a : Fin 2, win0_3.index t a * S2048x1024.size a ≤ (i a).val
      ∧ (i a).val < win0_3.index t a * S2048x1024.size a + S2048x1024.size a := by
  show i ∈ ((View.whole main_v7).slice (win0_3.rect t)).set ↔ _
  rw [View.set_slice_whole, Rect.mem_set_unit]
  exact Iff.rfl

/-- Every index of the array is in the block of a point that writes back. -/
theorem cover (i : S8192x4096.Idx) :
    ∃ t : Fin cfg0.N, (cfg0.win 3).flush t = true ∧ i ∈ ((cfg0.win 3).blk t).view.set := by
  have hN : cfg0.N = 256 := N_0
  have hi0 : (i 0).val < 8192 := (i 0).isLt
  have hi1 : (i 1).val < 4096 := (i 1).isLt
  have hb : 64 * ((i 0).val / 2048) + 16 * ((i 1).val / 1024) + 15 < cfg0.N := by rw [hN]; omega
  refine ⟨⟨_, hb⟩, (flush0_3 _).mpr (by show (64 * ((i 0).val / 2048) + 16 * ((i 1).val / 1024) + 15) % 16 = 15; omega), ?_⟩
  rw [mem_blk]
  obtain ⟨-, -, -, -, -, -, f6, f7⟩ := idx_facts ⟨_, hb⟩
  intro a
  match a with
  | ⟨0, _⟩ =>
    show win0_3.index ⟨_, hb⟩ (0 : Fin 2) * 2048 ≤ (i 0).val ∧ (i 0).val < win0_3.index ⟨_, hb⟩ (0 : Fin 2) * 2048 + 2048
    rw [f6]
    show (64 * ((i 0).val / 2048) + 16 * ((i 1).val / 1024) + 15) / 64 * 2048 ≤ (i 0).val
      ∧ (i 0).val < (64 * ((i 0).val / 2048) + 16 * ((i 1).val / 1024) + 15) / 64 * 2048 + 2048
    omega
  | ⟨1, _⟩ =>
    show win0_3.index ⟨_, hb⟩ (1 : Fin 2) * 1024 ≤ (i 1).val ∧ (i 1).val < win0_3.index ⟨_, hb⟩ (1 : Fin 2) * 1024 + 1024
    rw [f7]
    show (64 * ((i 0).val / 2048) + 16 * ((i 1).val / 1024) + 15) / 16 % 4 * 1024 ≤ (i 1).val
      ∧ (i 1).val < (64 * ((i 0).val / 2048) + 16 * ((i 1).val / 1024) + 15) / 16 % 4 * 1024 + 1024
    omega

/-- THE ARRAY after the region: the result function of the three arrays the region reads. -/
theorem final (c : Dev nD) :
    (dats m 0 c).arrAt 3 cfg0.N = result (V m c main_v5) (V m c main_v4) (V m c main_v6) :=
  (dats m 0 c).arrAt_eq_of_cover 3 (result (V m c main_v5) (V m c main_v4) (V m c main_v6))
    (fun t hf => flushed_eq m c t hf) cover

end Cert.KernelIdeal.Blocks

end
-- ==== Proof.Around.lean ====
/-
  Around the region. Before it the host folds the low-rank pair into the weights,
      Wf = W + 2 · (B · A)ᵀ,
  and re-lays the activations [4, 2048, 4096] as [8192, 4096] and the bias [4096] as a row [1, 4096]; the region
  computes the result function of these three arrays; after it the host re-lays the [8192, 4096] result as
  [4, 2048, 4096]. So the program's result is one function of its five arguments, and the arguments end unchanged.
-/
import proofs.«171863_j69329362092463_2_alg».proof.Proof.Blocks
import Idealize.ShloMosaic.Lib.StableHlo.Run

set_option maxRecDepth 16384

noncomputable section

open Idealize.ShloMosaic Idealize.ShloMosaic.TcCoe Idealize.SL.Sem Idealize.ShloMosaic.ValueIdx Idealize.ShloMosaic.StableHlo
open Idealize.ShloMosaic.Pipeline (Dat)

namespace Cert.KernelIdeal.Around

open Cert.KernelIdeal Cert.KernelIdeal.Gen

/-- The weights with the low-rank pair folded in: W + 2 · (B · A)ᵀ. -/
def foldedWeights (w : FVec Ideal S4096x4096 .f32) (b : FVec Ideal S4096x16 .f32) (a : FVec Ideal S16x4096 .f32) :
    FVec Ideal S4096x4096 .f32 :=
  addf w (mulf (broadcastInDim S4096x4096 ![] bcast_S_S4096x4096 (constant (F := Ideal) S_ .f32 0x40000000#32))
    (transpose S4096x4096 [1, 0] (Host.dotGeneral (F := Ideal) dot_S4096x16_S16x4096_S4096x4096_1_0_0_1_n_n none b a)
      transposes_S4096x4096_S4096x4096_1_0))

/-- The program's result as one function of its five arguments. -/
def kernelValue (x : FVec Ideal S4x2048x4096 .f32) (w : FVec Ideal S4096x4096 .f32) (bias : FVec Ideal S4096 .f32)
    (b : FVec Ideal S4096x16 .f32) (a : FVec Ideal S16x4096 .f32) : FVec Ideal S4x2048x4096 .f32 :=
  shapeCast S4x2048x4096
    (Blocks.result (shapeCast S8192x4096 x shapeCasts_S4x2048x4096_S8192x4096) (foldedWeights w b a)
      (shapeCast S1x4096 bias shapeCasts_S4096_S1x4096))
    shapeCasts_S8192x4096_S4x2048x4096

variable (m : (ℓ : Loc nD τ sig) → Buf (Elt Ideal) ℓ) (ρ : Dev nD → PrngReg)

/-- The region finds the activations re-laid as [8192, 4096], -/
theorem entry_acts (c : Dev nD) : (V m c main_v5 : S8192x4096.Idx → EReal)
    = shapeCast S8192x4096 (m ((c : Thread nD τ).loc main_arg0)) shapeCasts_S4x2048x4096_S8192x4096 := by
  show StableHlo.after hostOps0 (fun b => m (c, b)) (Proc.devRef .tc main_v5) = _
  after_results
  rfl

/-- the folded weights, -/
theorem entry_weights (c : Dev nD) : (V m c main_v4 : S4096x4096.Idx → EReal)
    = foldedWeights (m ((c : Thread nD τ).loc main_arg1)) (m ((c : Thread nD τ).loc main_arg3)) (m ((c : Thread nD τ).loc main_arg4)) := by
  show StableHlo.after hostOps0 (fun b => m (c, b)) (Proc.devRef .tc main_v4) = _
  after_results
  rfl

/-- and the bias as a row. -/
theorem entry_bias (c : Dev nD) : (V m c main_v6 : S1x4096.Idx → EReal)
    = shapeCast S1x4096 (m ((c : Thread nD τ).loc main_arg2)) shapeCasts_S4096_S1x4096 := by
  show StableHlo.after hostOps0 (fun b => m (c, b)) (Proc.devRef .tc main_v6) = _
  after_results
  rfl

/-- After the region the result is the region's array re-laid: the one function of the five arguments. -/
theorem tail_eq (c : Dev nD) :
    Pipeline.afterTail₀ cfgs (dats m) 0 (V0 m) [hostOps1] c main_v8
      = kernelValue (m ((c : Thread nD τ).loc main_arg0)) (m ((c : Thread nD τ).loc main_arg1)) (m ((c : Thread nD τ).loc main_arg2)) (m ((c : Thread nD τ).loc main_arg3)) (m ((c : Thread nD τ).loc main_arg4)) := by
  unfold Pipeline.afterTail₀
  show StableHlo.after hostOps1 _ (Proc.devRef .tc main_v8) = _
  after_results
  unfold kernelValue
  refine congrArg (fun z => shapeCast S4x2048x4096 z shapeCasts_S8192x4096_S4x2048x4096) ?_
  refine (Pipeline.withArrays_arr spec0 launch0.win.arr_inj c _ _ 3).trans ?_
  rw [Blocks.final m c, entry_acts m c, entry_weights m c, entry_bias m c]

/-- THE RUN, READ: every weakly fair execution terminates with the result at that function of the arguments as
    launched, and the arguments unchanged. -/
theorem run : θ_run defs (onTc (τ := τ) (main (F := Ideal))) ⟨m, fun _ => 0, ρ⟩ fun r => ∀ c : Dev nD,
      r.2.mem ((c.tc : Thread nD τ).loc main_v8)
        = kernelValue (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v8 (Pipeline.mem_restRefs_of main_v8 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Around

end
-- ==== Proof.Algebra.lean ====
/-
  The one algebraic law of this certificate: a low-rank correction folded into the weight matrix gives the
  same product as applying it after the fact,
    Σ_d x_d · (w_d + s · Σ_r b_{d r} · a_r) + β  =  (Σ_d x_d · w_d + β)  +  s · Σ_r (Σ_d x_d · b_{d r}) · a_r .
  Over the reals it is distributivity and an exchange of two finite sums. Over the extended reals it needs every
  entry to be finite (distributivity fails at the infinities), and then it is the real identity under the coercion.
-/
import Mathlib.Data.EReal.Basic
import Mathlib.Data.EReal.Operations
import Mathlib.Algebra.BigOperators.Ring.Finset
import Mathlib.Algebra.BigOperators.Group.Finset.Sigma
import Mathlib.Tactic.Ring
import Mathlib.Data.Fintype.BigOperators
import Mathlib.Logic.Equiv.Fin.Basic

namespace Cert.Lora

open Finset

/-- Folding the rank-`R` correction into the weights, over the reals. -/
theorem fold_real {D R : Type*} [Fintype D] [Fintype R] (x w : D → ℝ) (b : D → R → ℝ) (a : R → ℝ) (s : ℝ) :
    ∑ d, x d * (w d + s * ∑ r, b d r * a r) = ∑ d, x d * w d + s * ∑ r, (∑ d, x d * b d r) * a r := by
  simp only [mul_add, Finset.sum_add_distrib]
  congr 1
  simp only [Finset.mul_sum, Finset.sum_mul]
  rw [Finset.sum_comm]
  exact Finset.sum_congr rfl fun r _ => Finset.sum_congr rfl fun d _ => by ring

/-- The coercion of the reals into the extended reals commutes with finite sums. -/
theorem coe_sum {ι : Type*} (t : Finset ι) (f : ι → ℝ) : ((∑ i ∈ t, f i : ℝ) : EReal) = ∑ i ∈ t, (f i : EReal) := by
  classical
  refine Finset.induction_on t (by simp) fun i t hi ih => ?_
  rw [Finset.sum_insert hi, Finset.sum_insert hi, EReal.coe_add, ih]

/-- The same law over the extended reals, for finite entries: the bias `β` rides along on both sides. -/
theorem fold_ereal {D R : Type*} [Fintype D] [Fintype R] (x w : D → EReal) (b : D → R → EReal) (a : R → EReal) (s β : EReal)
    (hx : ∀ d, ∃ r : ℝ, x d = r) (hw : ∀ d, ∃ r : ℝ, w d = r) (hb : ∀ d q, ∃ r : ℝ, b d q = r) (ha : ∀ q, ∃ r : ℝ, a q = r)
    (hs : ∃ r : ℝ, s = r) (hβ : ∃ r : ℝ, β = r) :
    (∑ d, x d * (w d + s * ∑ r, b d r * a r)) + β = ((∑ d, x d * w d) + β) + s * ∑ r, (∑ d, x d * b d r) * a r := by
  choose xr hxr using hx
  choose wr hwr using hw
  choose br hbr using hb
  choose ar har using ha
  obtain ⟨sr, rfl⟩ := hs
  obtain ⟨βr, rfl⟩ := hβ
  simp only [hxr, hwr, hbr, har, ← EReal.coe_mul, ← coe_sum, ← EReal.coe_add]
  rw [fold_real]
  congr 1
  ring

/-- A sum over 4096 columns taken as sixteen blocks of 256: column k is (s, e) with k = 256 · s + e. -/
theorem sum_blocks {M : Type*} [AddCommMonoid M] (f : Fin 4096 → M) (g : Fin 16 → Fin 256 → Fin 4096)
    (hg : ∀ s e, (g s e).val = 256 * s.val + e.val) : ∑ s, ∑ e, f (g s e) = ∑ k, f k := by
  rw [← Fintype.sum_prod_type' (f := fun s e => f (g s e))]
  exact Fintype.sum_equiv (finProdFinEquiv (m := 16) (n := 256)) _ _ fun x => congrArg f (Fin.ext (by
    rw [hg]
    show 256 * x.1.val + x.2.val = x.2.val + 256 * x.1.val
    omega))

end Cert.Lora
-- ==== Proof.Bridge.lean ====
/-
  The two programs compute one function of finite inputs.
  At output index (b, s, q), with x the activations, W the weights, B and A the low-rank pair and c = 2 the scale:
    reference:  (Σ_k x(b,s,k) · W(q,k) + bias(q))  +  c · Σ_r (Σ_k x(b,s,k) · B(k,r)) · A(r,q)
    kernel:     (0 + Σ_{s'<16} Σ_{e<256} x(b,s,256 s'+e) · (W(q,256 s'+e) + c · Σ_r B(256 s'+e,r) · A(r,q)))  +  bias(q)
  The kernel's double sum is the sum over all 4096 columns, the re-laid arrays are read at the same row-major
  position, the transposed product (B · A)ᵀ at (q, k) is Σ_r B(k,r) · A(r,q), and the two sides are then the two sides
  of the folding law, which holds because every entry and the scale are finite.
-/
import proofs.«171863_j69329362092463_2_alg».proof.Proof.Around
import proofs.«171863_j69329362092463_2_alg».proof.Proof.Algebra
import proofs.«171863_j69329362092463_2_alg».proof.Proof.Gen.ReferenceIdeal.Read

set_option maxRecDepth 16384

noncomputable section

open Idealize.ShloMosaic Idealize.ShloMosaic.ValueIdx

namespace Cert.Lora.Bridge

open Cert.KernelIdeal Cert.KernelIdeal.Gen
open Cert.ReferenceIdeal.Read

/-- The scale both programs multiply the low-rank product by. -/
abbrev scale : EReal := Ideal.ofBits .f32 0x40000000#32

/-- It is a real number (the pattern denotes 2). -/
theorem scale_real : ∃ r : ℝ, scale = (r : EReal) := ⟨2, by
  unfold scale
  simp [Ideal.ofBits, Ideal.ieee, -EReal.coe_mul]
  norm_num⟩

/-! ### The reference's composed index maps at (b, s, q), as coordinates -/

theorem ref_x (bb : Fin 4) (s : Fin 2048) (q : Fin 4096) (k : Fin 4096) : lidx_main_v0 (ix3 bb s q) k = ix3 bb s k :=
  funext fun a => Fin.ext (by match a with | ⟨0, _⟩ => rfl | ⟨1, _⟩ => rfl | ⟨2, _⟩ => rfl)
theorem ref_w (bb : Fin 4) (s : Fin 2048) (q : Fin 4096) (k : Fin 4096) : ridx_main_v0 (ix3 bb s q) k = ix2 q k :=
  funext fun a => Fin.ext (by match a with | ⟨0, _⟩ => rfl | ⟨1, _⟩ => rfl)
theorem ref_bias (bb : Fin 4) (s : Fin 2048) (q : Fin 4096) : idx_main_v1 (idx_main_v2 (ix3 bb s q)) = ix1 q :=
  funext fun a => Fin.ext (by match a with | ⟨0, _⟩ => rfl)
theorem ref_xb (bb : Fin 4) (s : Fin 2048) (q : Fin 4096) (r : Fin 16) : lidx_main_v5 (ix3 bb s q) r = ix3 bb s r :=
  funext fun a => Fin.ext (by match a with | ⟨0, _⟩ => rfl | ⟨1, _⟩ => rfl | ⟨2, _⟩ => rfl)
theorem ref_a (bb : Fin 4) (s : Fin 2048) (q : Fin 4096) (r : Fin 16) : ridx_main_v5 (ix3 bb s q) r = ix2 r q :=
  funext fun a => Fin.ext (by match a with | ⟨0, _⟩ => rfl | ⟨1, _⟩ => rfl)
theorem ref_x' (bb : Fin 4) (s : Fin 2048) (r : Fin 16) (k : Fin 4096) : lidx_main_v4 (ix3 bb s r) k = ix3 bb s k :=
  funext fun a => Fin.ext (by match a with | ⟨0, _⟩ => rfl | ⟨1, _⟩ => rfl | ⟨2, _⟩ => rfl)
theorem ref_b (bb : Fin 4) (s : Fin 2048) (r : Fin 16) (k : Fin 4096) : ridx_main_v4 (ix3 bb s r) k = ix2 k r :=
  funext fun a => Fin.ext (by match a with | ⟨0, _⟩ => rfl | ⟨1, _⟩ => rfl)

/-- The reference at (b, s, q). -/
theorem reference_apply (x : FVec Ideal S4x2048x4096 .f32) (w : FVec Ideal S4096x4096 .f32) (bias : FVec Ideal S4096 .f32)
    (b : FVec Ideal S4096x16 .f32) (a : FVec Ideal S16x4096 .f32) (bb : Fin 4) (s : Fin 2048) (q : Fin 4096) :
    val_main_v8 (F := Ideal) x w bias b a (ix3 bb s q)
      = ((∑ k : Fin 4096, x (ix3 bb s k) * w (ix2 q k)) + bias (ix1 q))
        + scale * ∑ r : Fin 16, (∑ k : Fin 4096, x (ix3 bb s k) * b (ix2 k r)) * a (ix2 r q) := by
  rw [val_main_v8_apply, val_main_v3_apply, val_main_v7_apply, val_main_v0_apply, val_main_v2_apply, val_main_v1_apply,
    val_main_v6_apply, val_main_cst_apply, val_main_v5_apply]
  simp only [val_main_v4_apply, ref_x, ref_w, ref_bias, ref_xb, ref_a, ref_x', ref_b]
  rfl

/-! ### The kernel's side: the host's product (B · A)ᵀ and the re-layings at an index -/

theorem hd_lhs0 (j : S4096x4096.Idx) (p : dot_S4096x16_S16x4096_S4096x4096_1_0_0_1_n_n.contr.Idx) : (dot_S4096x16_S16x4096_S4096x4096_1_0_0_1_n_n.lhsIdx j p 0).val = (j 0).val := by
  unfold DotDims.lhsIdx
  rw [dif_neg (show ¬(0 : Fin S4096x16.rank) ∈ dot_S4096x16_S16x4096_S4096x4096_1_0_0_1_n_n.lhsBatch by decide), dif_pos (show (0 : Fin S4096x16.rank) ∈ dot_S4096x16_S16x4096_S4096x4096_1_0_0_1_n_n.lhsNonContracting by decide)]
  rfl
theorem hd_lhs1 (j : S4096x4096.Idx) (p : dot_S4096x16_S16x4096_S4096x4096_1_0_0_1_n_n.contr.Idx) : (dot_S4096x16_S16x4096_S4096x4096_1_0_0_1_n_n.lhsIdx j p 1).val = (p ⟨0, by decide⟩).val :=
  dot_S4096x16_S16x4096_S4096x4096_1_0_0_1_n_n.lhsIdx_val_of_single rfl j p
theorem hd_rhs0 (j : S4096x4096.Idx) (p : dot_S4096x16_S16x4096_S4096x4096_1_0_0_1_n_n.contr.Idx) : (dot_S4096x16_S16x4096_S4096x4096_1_0_0_1_n_n.rhsIdx j p 0).val = (p ⟨0, by decide⟩).val :=
  dot_S4096x16_S16x4096_S4096x4096_1_0_0_1_n_n.rhsIdx_val_of_single rfl j p
theorem hd_rhs1 (j : S4096x4096.Idx) (p : dot_S4096x16_S16x4096_S4096x4096_1_0_0_1_n_n.contr.Idx) : (dot_S4096x16_S16x4096_S4096x4096_1_0_0_1_n_n.rhsIdx j p 1).val = (j 1).val := by
  unfold DotDims.rhsIdx
  rw [dif_neg (show ¬(1 : Fin S16x4096.rank) ∈ dot_S4096x16_S16x4096_S4096x4096_1_0_0_1_n_n.rhsBatch by decide), dif_pos (show (1 : Fin S16x4096.rank) ∈ dot_S4096x16_S16x4096_S4096x4096_1_0_0_1_n_n.rhsNonContracting by decide)]
  rfl

/-- The host's product B · A at (k, q): the sum over the rank axis. -/
theorem low_rank_apply (b : FVec Ideal S4096x16 .f32) (a : FVec Ideal S16x4096 .f32) (k q : Fin 4096) :
    Host.dotGeneral (F := Ideal) dot_S4096x16_S16x4096_S4096x4096_1_0_0_1_n_n none b a (ix2 k q) = ∑ r : Fin 16, b (ix2 k r) * a (ix2 r q) := by
  simp only [Host.dotGeneral]
  rw [Ideal.dotGeneral_apply, ← Equiv.sum_comp (contrEquiv1 dot_S4096x16_S16x4096_S4096x4096_1_0_0_1_n_n 16 rfl rfl).symm]
  refine Finset.sum_congr rfl fun r _ => ?_
  have hk := contrEquiv1_symm_val dot_S4096x16_S16x4096_S4096x4096_1_0_0_1_n_n 16 rfl rfl r
  have el : dot_S4096x16_S16x4096_S4096x4096_1_0_0_1_n_n.lhsIdx (ix2 k q) ((contrEquiv1 dot_S4096x16_S16x4096_S4096x4096_1_0_0_1_n_n 16 rfl rfl).symm r) = ix2 k r := funext fun d => Fin.ext (by
    match d with
    | ⟨0, _⟩ => exact hd_lhs0 _ _
    | ⟨1, _⟩ => exact (hd_lhs1 _ _).trans hk)
  have er : dot_S4096x16_S16x4096_S4096x4096_1_0_0_1_n_n.rhsIdx (ix2 k q) ((contrEquiv1 dot_S4096x16_S16x4096_S4096x4096_1_0_0_1_n_n 16 rfl rfl).symm r) = ix2 r q := funext fun d => Fin.ext (by
    match d with
    | ⟨0, _⟩ => exact (hd_rhs0 _ _).trans hk
    | ⟨1, _⟩ => exact hd_rhs1 _ _)
  rw [el, er]

/-- The folded weights at (q, k): W(q, k) + c · Σ_r B(k, r) · A(r, q). -/
theorem folded_apply (w : FVec Ideal S4096x4096 .f32) (b : FVec Ideal S4096x16 .f32) (a : FVec Ideal S16x4096 .f32) (q k : Fin 4096) :
    Around.foldedWeights w b a (ix2 q k) = w (ix2 q k) + scale * ∑ r : Fin 16, b (ix2 k r) * a (ix2 r q) := by
  unfold Around.foldedWeights
  refine congrArg (w (ix2 q k) + ·) ?_
  refine congrArg₂ (· * ·) ?_ ?_
  · exact broadcastInDim_apply _ bcast_S_S4096x4096 _ (ix2 q k) ix0 (fun d => d.elim0)
  · refine (transpose_apply [1, 0] _ transposes_S4096x4096_S4096x4096_1_0 (ix2 q k) (ix2 k q) (fun d => ?_)).trans
      (low_rank_apply b a k q)
    match d with
    | ⟨0, _⟩ => rfl
    | ⟨1, _⟩ => rfl

/-- The activations re-laid as [8192, 4096], at row 2048 · b + s. -/
theorem acts_apply (x : FVec Ideal S4x2048x4096 .f32) (bb : Fin 4) (s : Fin 2048) (k : Fin 4096) (p : Fin 8192)
    (hp : p.val = 2048 * bb.val + s.val) :
    shapeCast S8192x4096 x shapeCasts_S4x2048x4096_S8192x4096 (ix2 p k) = x (ix3 bb s k) := by
  refine shapeCast_apply x _ (ix2 p k) (ix3 bb s k) ?_
  rw [Shape.rowMajor_val_three, Shape.rowMajor_val_two]
  show (bb.val * 2048 + s.val) * 4096 + k.val = p.val * 4096 + k.val
  rw [hp]; ring

/-- The bias re-laid as a row. -/
theorem bias_apply (bias : FVec Ideal S4096 .f32) (q : Fin 4096) :
    shapeCast S1x4096 bias shapeCasts_S4096_S1x4096 (ix2 (0 : Fin 1) q) = bias (ix1 q) := by
  refine shapeCast_apply bias _ (ix2 (0 : Fin 1) q) (ix1 q) ?_
  rw [Shape.rowMajor_val_one, Shape.rowMajor_val_two]
  show q.val = 0 * 4096 + q.val
  omega

/-- The kernel's result at (b, s, q). -/
theorem kernel_apply (x : FVec Ideal S4x2048x4096 .f32) (w : FVec Ideal S4096x4096 .f32) (bias : FVec Ideal S4096 .f32)
    (b : FVec Ideal S4096x16 .f32) (a : FVec Ideal S16x4096 .f32) (bb : Fin 4) (s : Fin 2048) (q : Fin 4096) :
    Around.kernelValue x w bias b a (ix3 bb s q)
      = (0 + ∑ s' : Fin 16, ∑ e : Fin 256, x (ix3 bb s (Blocks.kcol s' e))
            * (w (ix2 q (Blocks.kcol s' e)) + scale * ∑ r : Fin 16, b (ix2 (Blocks.kcol s' e) r) * a (ix2 r q)))
        + bias (ix1 q) := by
  have hb : bb.val < 4 := bb.isLt
  have hs : s.val < 2048 := s.isLt
  unfold Around.kernelValue
  refine (shapeCast_apply _ shapeCasts_S8192x4096_S4x2048x4096 (ix3 bb s q) (ix2 (⟨2048 * bb.val + s.val, by omega⟩ : Fin 8192) q) ?_).trans ?_
  · rw [Shape.rowMajor_val_three, Shape.rowMajor_val_two]
    show (2048 * bb.val + s.val) * 4096 + q.val = (bb.val * 2048 + s.val) * 4096 + q.val
    ring
  show Blocks.resultAt _ _ _ (⟨2048 * bb.val + s.val, by omega⟩ : Fin 8192) q = _
  unfold Blocks.resultAt
  refine congrArg₂ (· + ·) (congrArg (0 + ·) (Finset.sum_congr rfl fun s' _ => Finset.sum_congr rfl fun e _ =>
    congrArg₂ (· * ·) (acts_apply x bb s _ _ rfl) (folded_apply w b a q _))) (bias_apply bias q)

/-- ONE FUNCTION: on finite inputs the reference's result is the kernel's, index by index. -/
theorem value_eq (x : FVec Ideal S4x2048x4096 .f32) (w : FVec Ideal S4096x4096 .f32) (bias : FVec Ideal S4096 .f32)
    (b : FVec Ideal S4096x16 .f32) (a : FVec Ideal S16x4096 .f32)
    (hx : ∀ i, ∃ r : ℝ, x i = (r : EReal)) (hw : ∀ i, ∃ r : ℝ, w i = (r : EReal)) (hbias : ∀ i, ∃ r : ℝ, bias i = (r : EReal))
    (hb : ∀ i, ∃ r : ℝ, b i = (r : EReal)) (ha : ∀ i, ∃ r : ℝ, a i = (r : EReal)) :
    val_main_v8 (F := Ideal) x w bias b a = Around.kernelValue x w bias b a := by
  funext i
  obtain ⟨bb, s, q, rfl⟩ : ∃ (bb : Fin 4) (s : Fin 2048) (q : Fin 4096), i = ix3 bb s q := ⟨i 0, i 1, i 2, eq_ix3 i⟩
  rw [reference_apply, kernel_apply, zero_add,
    Cert.Lora.sum_blocks (fun k => x (ix3 bb s k) * (w (ix2 q k) + scale * ∑ r : Fin 16, b (ix2 k r) * a (ix2 r q)))
      Blocks.kcol Blocks.kcol_val]
  exact (Cert.Lora.fold_ereal (fun k => x (ix3 bb s k)) (fun k => w (ix2 q k)) (fun k r => b (ix2 k r)) (fun r => a (ix2 r q))
    scale (bias (ix1 q)) (fun k => hx _) (fun k => hw _) (fun k r => hb _) (fun r => ha _) scale_real (hbias _)).symm

end Cert.Lora.Bridge

end
-- ==== Proof.Finite.lean ====
/-
  FINITE MEANS REAL. The precondition of the claim is, for each of the five float inputs, the host test
  "every entry x has |x| < +∞", the five answers and-ed together. At the ideal instance a float is an extended
  real, its absolute value is max x (-x), and the pattern 0x7F800000 denotes +∞ (the top element ⊤). An extended real is
  ⊥, ⊤ or a real number r: at ⊤ the maximum is ⊤, at ⊥ it is max ⊥ ⊤ = ⊤, and ⊤ < ⊤ is false; so |x| < +∞ rules
  out both infinities and leaves x = r. An and of one-bit words is 1 only when both are 1, and a reduction by and
  over every axis that came out 1 met a 1 at every index. Hence the precondition makes every entry of every
  input a real number.
-/
import proofs.«171863_j69329362092463_2_alg».proof.Pre_finite_inputs
import proofs.«171863_j69329362092463_2_alg».proof.Proof.Gen.Pre_finite_inputs
import Idealize.ShloMosaic.PureOps.Ideal
import Idealize.ShloMosaic.PureOps.Ideal.Laws
import Idealize.ShloMosaic.Lib.ReduceAll
import Idealize.ShloMosaic.Lib.ValueIdx

open Idealize.ShloMosaic

namespace Cert.Lora

open Cert.Pre_finite_inputs

/-- One extended real: if the one-bit answer of `|x| < +∞` is 1 then `x` is a real number. -/
theorem real_of_abs_lt_inf (x : Ideal .f32)
    (h : FloatOps.cmpf .olt (FloatOps.hostAbsf x) (FloatOps.ofBits (F := Ideal) .f32 0x7F800000#32) = 1#1) :
    ∃ r : ℝ, x = (r : EReal) := by
  have htop : Ideal.ofBits .f32 0x7F800000#32 = ⊤ := by simp [Ideal.ofBits, Ideal.ieee]
  change Ideal.cmp .olt (max (x : EReal) (-(x : EReal))) (Ideal.ofBits .f32 0x7F800000#32) = 1#1 at h
  rw [htop] at h
  unfold Ideal.cmp at h
  induction x using EReal.rec with
  | bot => simp at h
  | coe r => exact ⟨r, rfl⟩
  | top => simp at h

/-- The rank-0 shape has one index. -/
instance : Subsingleton S_.Idx := ⟨fun a b => funext fun d => d.elim0⟩

/-- One array of any shape: if the and over every axis of the entrywise `|x| < +∞` is 1, every entry is a real. -/
theorem real_of_all_abs_lt_inf {s : Shape} {axes : List (Fin s.rank)} (x : FVec Ideal s .f32)
    (hb : S_.BroadcastsInDim s (![] : Fin 0 → Fin s.rank)) (hr : s.ReducesTo axes S_) (hu : 0 < S_.numel) (j : S_.Idx)
    (h : Host.reduce IntOp.andi
          (cmpf .olt (Host.absf x) (broadcastInDim s ![] hb (constant S_ .f32 0x7F800000#32)))
          (constantI S_ 1 1#1) hr hu j = 1#1) (i : s.Idx) :
    ∃ r : ℝ, x i = (r : EReal) :=
  real_of_abs_lt_inf (x i) (Host.reduce_andi_all _ _ hr hu j h i)

/-- The precondition, holding, makes every entry of each of the five inputs a real number. -/
theorem finite_of_pre
    (x0 : FVec Ideal S4x2048x4096 .f32) (x1 : FVec Ideal S4096x4096 .f32)
    (x2 : FVec Ideal S4096 .f32) (x3 : FVec Ideal S4096x16 .f32)
    (x4 : FVec Ideal S16x4096 .f32)
    (h : Cert.Pre_finite_inputs.fn (F := Ideal) x0 x1 x2 x3 x4 = fun _ => 1#1) :
    (∀ i, ∃ r : ℝ, x0 i = (r : EReal)) ∧ (∀ i, ∃ r : ℝ, x1 i = (r : EReal)) ∧ (∀ i, ∃ r : ℝ, x2 i = (r : EReal))
      ∧ (∀ i, ∃ r : ℝ, x3 i = (r : EReal)) ∧ (∀ i, ∃ r : ℝ, x4 i = (r : EReal)) := by
  have h0 := congrFun h ValueIdx.ix0
  dsimp only [Cert.Pre_finite_inputs.fn, Cert.Pre_finite_inputs.fn_part1, andi] at h0
  obtain ⟨h0, h4⟩ := IntOp.andi_eq_one.1 h0
  obtain ⟨h0, h3⟩ := IntOp.andi_eq_one.1 h0
  obtain ⟨h0, h2⟩ := IntOp.andi_eq_one.1 h0
  obtain ⟨h0, h1⟩ := IntOp.andi_eq_one.1 h0
  exact ⟨real_of_all_abs_lt_inf x0 _ _ _ _ h0, real_of_all_abs_lt_inf x1 _ _ _ _ h1,
    real_of_all_abs_lt_inf x2 _ _ _ _ h2, real_of_all_abs_lt_inf x3 _ _ _ _ h3,
    real_of_all_abs_lt_inf x4 _ _ _ _ h4⟩

end Cert.Lora
-- ==== Proof.lean ====
/- A linear layer with a low-rank correction, out = x · Wᵀ + bias + 2 · (x · B) · A, over x : [4, 2048, 4096],
   W : [4096, 4096], bias : [4096], B : [4096, 16], A : [16, 4096].
   The reference computes it as written: two sums over the 4096 columns and one over the rank 16.
   The kernel first folds the correction into the weights, Wf = W + 2 · (B · A)ᵀ, and then computes x · Wfᵀ + bias
   block by block: a 4 x 4 x 16 grid over [2048, 1024] output blocks, the last grid axis running over the sixteen
   256-column blocks of the contraction with an accumulator carried from point to point and the bias added at the last.
   Over the extended reals the two are equal when every input is finite: the accumulated blocks are the whole sum over
   the columns (addition is commutative and associative), and x · (W + 2 · B·A) = x · W + 2 · (x · B) · A is
   distributivity, which needs finiteness. The modules, in order: Algebra (the law), Payload (the body's stored
   values at an index), Pieces (what each of the body's three cases leaves), Fold (the accumulator along a run of
   sixteen points), Blocks (from the blocks written back to the region's whole array), Around (the host's lines before
   and after the region, and the program's run with its result named), Finite (the precondition makes every entry a
   real number), Bridge (the two results are one function). Here: the three frames, the idealization (nothing was
   rewritten), and the equality of results. -/
import proofs.«171863_j69329362092463_2_alg».proof.Defs
import proofs.«171863_j69329362092463_2_alg».proof.Proof.Gen.Kernel
import proofs.«171863_j69329362092463_2_alg».proof.Proof.Gen.Kernel.Skeleton
import proofs.«171863_j69329362092463_2_alg».proof.Proof.Gen.Kernel.Launch
import proofs.«171863_j69329362092463_2_alg».proof.Proof.Gen.Kernel.Points
import proofs.«171863_j69329362092463_2_alg».proof.Proof.Gen.Kernel.Frame
import proofs.«171863_j69329362092463_2_alg».proof.Proof.Gen.KernelIdeal
import proofs.«171863_j69329362092463_2_alg».proof.Proof.Gen.KernelIdeal.Skeleton
import proofs.«171863_j69329362092463_2_alg».proof.Proof.Gen.KernelIdeal.Launch
import proofs.«171863_j69329362092463_2_alg».proof.Proof.Gen.KernelIdeal.Points
import proofs.«171863_j69329362092463_2_alg».proof.Proof.Gen.KernelIdeal.Frame
import proofs.«171863_j69329362092463_2_alg».proof.Proof.Gen.ReferenceIdeal
import proofs.«171863_j69329362092463_2_alg».proof.Proof.Gen.ReferenceIdeal.Run
import proofs.«171863_j69329362092463_2_alg».proof.Proof.Gen.ReferenceIdeal.Read
import proofs.«171863_j69329362092463_2_alg».proof.Proof.Gen.Pre_finite_inputs
import proofs.«171863_j69329362092463_2_alg».proof.Proof.Around
import proofs.«171863_j69329362092463_2_alg».proof.Proof.Bridge
import proofs.«171863_j69329362092463_2_alg».proof.Proof.Finite
import Idealize.ShloMosaic.Adequacy
import Idealize.ShloMosaic.Init

noncomputable section

namespace Cert.Proof

open Idealize.ShloMosaic Idealize.SL.Sem

/-- The kernel as printed runs and leaves its arguments as they were. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The reference is a straight line of host operations: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the five finite arguments, both programs end with the same result: the kernel's
    run names it as one function of the arguments, the reference's run ends at its own term of the same arguments,
    and the two are one function on finite inputs. -/
theorem algebraic : Cert.algebraic_KernelIdeal_ReferenceIdeal := by
  intro m ρ m' ρ' hpre hagree
  refine ⟨fun c => Cert.KernelIdeal.Around.kernelValue (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    Cert.KernelIdeal.Around.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, (hagree c).1, (hagree c).2.1, (hagree c).2.2.1, (hagree c).2.2.2.1,
    (hagree c).2.2.2.2]
  obtain ⟨f0, f1, f2, f3, f4⟩ := Cert.Lora.finite_of_pre _ _ _ _ _ (hpre c)
  exact Cert.Lora.Bridge.value_eq _ _ _ _ _ f0 f1 f2 f3 f4

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
